-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x300 : Shape := ⟨3, ![256, 2048, 300]⟩
abbrev S256x64x300 : Shape := ⟨3, ![256, 64, 300]⟩
abbrev S_ : Shape := ⟨0, ![]⟩

class Facts : Prop where
  bcast_S_S256x2048x300 : S_.BroadcastsInDim S256x2048x300 (![] : Fin 0 → Fin S256x2048x300.rank)
  reducesTo_S256x2048x300_S_d0_1_2 : S256x2048x300.ReducesTo [0, 1, 2] S_
  h_S_ : 0 < S_.numel
  bcast_S_S256x64x300 : S_.BroadcastsInDim S256x64x300 (![] : Fin 0 → Fin S256x64x300.rank)
  reducesTo_S256x64x300_S_d0_1_2 : S256x64x300.ReducesTo [0, 1, 2] S_

variable [Facts]

def fn {F : FTy → Type} [FloatOps F] (main_arg0 : FVec F S256x2048x300 .f32) (main_arg1 : FVec F S256x64x300 .f32) : IVec S_ 1 :=
  let main_v0 : FVec F S256x2048x300 .f32 := Host.absf main_arg0
  let main_cst : FVec F S_ .f32 := constant S_ .f32 0x7F800000#32
  let main_v1 : FVec F S256x2048x300 .f32 := broadcastInDim S256x2048x300 ![] bcast_S_S256x2048x300 main_cst
  let main_v2 : IVec S256x2048x300 1 := cmpf .olt main_v0 main_v1
  let main_c : IVec S_ 1 := constantI S_ 1 1#1
  let main_v3 : IVec S_ 1 := (fun x v => Host.reduce IntOp.andi x v reducesTo_S256x2048x300_S_d0_1_2 h_S_) main_v2 main_c
  let main_v4 : FVec F S256x64x300 .f32 := Host.absf main_arg1
  let main_cst_0 : FVec F S_ .f32 := constant S_ .f32 0x7F800000#32
  let main_v5 : FVec F S256x64x300 .f32 := broadcastInDim S256x64x300 ![] bcast_S_S256x64x300 main_cst_0
  let main_v6 : IVec S256x64x300 1 := cmpf .olt main_v4 main_v5
  let main_c_1 : IVec S_ 1 := constantI S_ 1 1#1
  let main_v7 : IVec S_ 1 := (fun x v => Host.reduce IntOp.andi x v reducesTo_S256x64x300_S_d0_1_2 h_S_) main_v6 main_c_1
  let main_v8 : IVec S_ 1 := andi main_v3 main_v7
  main_v8
-- ==== Kernel.lean ====
abbrev S256x2048x300 : Shape := ⟨3, ![256, 2048, 300]⟩
abbrev S256x64x300 : Shape := ⟨3, ![256, 64, 300]⟩
abbrev S256x600 : Shape := ⟨2, ![256, 600]⟩
abbrev S32x512x300 : Shape := ⟨3, ![32, 512, 300]⟩
abbrev S32x64x300 : Shape := ⟨3, ![32, 64, 300]⟩
abbrev S32x600 : Shape := ⟨2, ![32, 600]⟩
abbrev S32x300 : Shape := ⟨2, ![32, 300]⟩

abbrev nBuf : Space → Nat
  | .hbm => 3
  | .vmem => 8
  | .smem => 0
  | _ => 0

abbrev bufTy : (tb : Table) → Fin (tcTables nBuf tb) → BufTy
  | .hbm, ⟨0, _⟩ => ⟨S256x2048x300, .f32⟩
  | .hbm, ⟨1, _⟩ => ⟨S256x64x300, .f32⟩
  | .hbm, ⟨2, _⟩ => ⟨S256x600, .f32⟩
  | .local _ .vmem, ⟨0, _⟩ => ⟨S32x512x300, .f32⟩
  | .local _ .vmem, ⟨1, _⟩ => ⟨S32x512x300, .f32⟩
  | .local _ .vmem, ⟨2, _⟩ => ⟨S32x64x300, .f32⟩
  | .local _ .vmem, ⟨3, _⟩ => ⟨S32x64x300, .f32⟩
  | .local _ .vmem, ⟨4, _⟩ => ⟨S32x600, .f32⟩
  | .local _ .vmem, ⟨5, _⟩ => ⟨S32x600, .f32⟩
  | .local _ .vmem, ⟨6, _⟩ => ⟨S32x300, .f32⟩
  | .local _ .vmem, ⟨7, _⟩ => ⟨S32x300, .f32⟩
  | _, _ => ⟨S256x2048x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x512x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x300_S32x300_0_0 : ∀ a, (![0, 0] : Fin 2 → Nat) a + S32x300.size a ≤ S32x300.size a
  h_S32x300 : 0 < S32x300.numel
  shapeCasts_S32x300_S32x300 : S32x300.ShapeCasts S32x300
  inb_S32x64x300_S32x64x300_0_0_0 : ∀ a, (![0, 0, 0] : Fin 3 → Nat) a + S32x64x300.size a ≤ S32x64x300.size a
  h_S32x64x300 : 0 < S32x64x300.numel
  reduces_S32x64x300_S32x300 : S32x64x300.Reduces [1] S32x300
  inb_S32x512x300_S32x512x300_0_0_0 : ∀ a, (![0, 0, 0] : Fin 3 → Nat) a + S32x512x300.size a ≤ S32x512x300.size a
  h_S32x512x300 : 0 < S32x512x300.numel
  reduces_S32x512x300_S32x300 : S32x512x300.Reduces [1] S32x300
  concatenates_S32x300_S32x300_S32x600_d1 : Shape.Concatenates [S32x300, S32x300] S32x600 1
  inb_S32x600_S32x600_0_0 : ∀ a, (![0, 0] : Fin 2 → Nat) a + S32x600.size a ≤ S32x600.size a
  h_S32x600 : 0 < S32x600.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x300.size a ≤ S256x2048x300.size a
  hwx0_0 : ∀ i : grid0.Coords, EltTy.bits .f32 = 32 ∨ (Rect.block (s := S256x2048x300) S32x512x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x300.size a ≤ S256x64x300.size a
  hwx0_1 : ∀ i : grid0.Coords, EltTy.bits .f32 = 32 ∨ (Rect.block (s := S256x64x300) S32x64x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x600.size a ≤ S256x600.size a
  hwx0_2 : ∀ i : grid0.Coords, EltTy.bits .f32 = 32 ∨ (Rect.block (s := S256x600) S32x600.size (cc0_transform_2 i) (hinb0_2 i)).WholeWords (EltTy.packing .f32)

variable [Facts₀]

abbrev win0_0 : Pipeline.Window sig grid0 :=
  Pipeline.Window.ofSpec (Memref.whole main_arg0) S32x512x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x600.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x2048x300 : Shape := ⟨3, ![256, 2048, 300]⟩
abbrev S256x64x300 : Shape := ⟨3, ![256, 64, 300]⟩
abbrev S_ : Shape := ⟨0, ![]⟩
abbrev S256x300 : Shape := ⟨2, ![256, 300]⟩
abbrev S256x600 : Shape := ⟨2, ![256, 600]⟩

abbrev nBuf : Space → Nat
  | .hbm => 13
  | .vmem => 0
  | .smem => 0
  | _ => 0

abbrev bufTy : (tb : Table) → Fin (tcTables nBuf tb) → BufTy
  | .hbm, ⟨0, _⟩ => ⟨S256x2048x300, .f32⟩
  | .hbm, ⟨1, _⟩ => ⟨S256x64x300, .f32⟩
  | .hbm, ⟨2, _⟩ => ⟨S_, .f32⟩
  | .hbm, ⟨3, _⟩ => ⟨S256x300, .f32⟩
  | .hbm, ⟨4, _⟩ => ⟨S_, .f32⟩
  | .hbm, ⟨5, _⟩ => ⟨S256x300, .f32⟩
  | .hbm, ⟨6, _⟩ => ⟨S256x300, .f32⟩
  | .hbm, ⟨7, _⟩ => ⟨S_, .f32⟩
  | .hbm, ⟨8, _⟩ => ⟨S256x300, .f32⟩
  | .hbm, ⟨9, _⟩ => ⟨S_, .f32⟩
  | .hbm, ⟨10, _⟩ => ⟨S256x300, .f32⟩
  | .hbm, ⟨11, _⟩ => ⟨S256x300, .f32⟩
  | .hbm, ⟨12, _⟩ => ⟨S256x600, .f32⟩
  | _, _ => ⟨S256x2048x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  reducesTo_S256x2048x300_S256x300_d1 : S256x2048x300.ReducesTo [1] S256x300
  h_S_ : 0 < S_.numel
  bcast_S_S256x300 : S_.BroadcastsInDim S256x300 (![] : Fin 0 → Fin S256x300.rank)
  reducesTo_S256x64x300_S256x300_d1 : S256x64x300.ReducesTo [1] S256x300
  concatenates_S256x300_S256x300_S256x600_d1 : Shape.Concatenates [S256x300, S256x300] S256x600 1

variable [Facts₀]

class Facts : Prop extends Facts₀ where

variable [Facts]
-- ==== Proof.BodyPieces.lean ====
/-
  What one run of the kernel body leaves in its two carried buffers and in the output block, as values of the
  body's arithmetic: the running article sum becomes "what it held, plus this block's sum over the word axis" (at a
  batch tile's first word block: "zero, plus this block's sum"), the options mean is computed at the first word
  block and kept afterwards, and at the last word block the output block is the scaled article sum joined with the
  options mean along the feature axis.
-/
import proofs.«133428_j26147760898611_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pool

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a middle word block the running sum becomes what it held plus this block's sum. -/
theorem acc_B (c : Dev nD) (i : grid0.Coords) (arg2 : Memref sig .tc .vmem S32x512x300 .f32) (harg2 : arg2.IsWhole) (arg3 : Memref sig .tc .vmem S32x64x300 .f32) (harg3 : arg3.IsWhole) (arg4 : Memref sig .tc .vmem S32x600 .f32) (harg4 : arg4.IsWhole) (arg5 : Memref sig .tc .vmem S32x300 .f32) (harg5 : arg5.IsWhole) (arg6 : Memref sig .tc .vmem S32x300 .f32) (harg6 : arg6.IsWhole) (hc0 : ¬cond0_0 i) (hc1 : ¬cond0_1 i)
    (x0 : Vec F S32x512x300 .f32) (x1 : Vec F S32x64x300 .f32) (xs0 : Vec F S32x300 .f32) (xs1 : Vec F S32x300 .f32) :
    sout0_B_0 c i arg2 harg2 arg3 harg3 arg4 harg4 arg5 harg5 arg6 harg6 hc0 hc1 x0 x1 xs0 xs1 = k0_pay3 xs0 x0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_unit_zero hz2]
  simp only [View.readAt_eq_ld, harg5.read_unread, harg2.read_unread, View.ld_unit_zero (S := S32x300) hz2,
    View.ld_unit_zero (S := S32x512x300) hz3]

/-- At the last word block the running sum becomes what it held plus this block's sum. -/
theorem acc_C (c : Dev nD) (i : grid0.Coords) (arg2 : Memref sig .tc .vmem S32x512x300 .f32) (harg2 : arg2.IsWhole) (arg3 : Memref sig .tc .vmem S32x64x300 .f32) (harg3 : arg3.IsWhole) (arg4 : Memref sig .tc .vmem S32x600 .f32) (harg4 : arg4.IsWhole) (arg5 : Memref sig .tc .vmem S32x300 .f32) (harg5 : arg5.IsWhole) (arg6 : Memref sig .tc .vmem S32x300 .f32) (harg6 : arg6.IsWhole) (hc0 : ¬cond0_0 i) (hc1 : cond0_1 i)
    (x0 : Vec F S32x512x300 .f32) (x1 : Vec F S32x64x300 .f32) (xs0 : Vec F S32x300 .f32) (xs1 : Vec F S32x300 .f32) :
    sout0_C_0 c i arg2 harg2 arg3 harg3 arg4 harg4 arg5 harg5 arg6 harg6 hc0 hc1 x0 x1 xs0 xs1 = k0_pay3 xs0 x0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg5.read_unread, harg2.read_unread, View.ld_unit_zero (S := S32x300) hz2,
    View.ld_unit_zero (S := S32x512x300) hz3]

/-- At the last word block the output block is the scaled running sum joined with the kept options mean. -/
theorem out_C (c : Dev nD) (i : grid0.Coords) (arg2 : Memref sig .tc .vmem S32x512x300 .f32) (harg2 : arg2.IsWhole) (arg3 : Memref sig .tc .vmem S32x64x300 .f32) (harg3 : arg3.IsWhole) (arg4 : Memref sig .tc .vmem S32x600 .f32) (harg4 : arg4.IsWhole) (arg5 : Memref sig .tc .vmem S32x300 .f32) (harg5 : arg5.IsWhole) (arg6 : Memref sig .tc .vmem S32x300 .f32) (harg6 : arg6.IsWhole) (hc0 : ¬cond0_0 i) (hc1 : cond0_1 i)
    (x0 : Vec F S32x512x300 .f32) (x1 : Vec F S32x64x300 .f32) (xs0 : Vec F S32x300 .f32) (xs1 : Vec F S32x300 .f32) :
    out0_C_2 c i arg2 harg2 arg3 harg3 arg4 harg4 arg5 harg5 arg6 harg6 hc0 hc1 x0 x1 xs0 xs1 = k0_pay4 (k0_pay3 xs0 x0) xs1 := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S32x600) hz2, View.readCov_unit_zero (S := S32x300) _ hz2]
  simp only [View.readAt_eq_ld, harg5.read_unread, harg2.read_unread, harg6.read_unread,
    View.ld_unit_zero (S := S32x300) hz2, View.ld_unit_zero (S := S32x512x300) hz3]

/-- At a batch tile's first word block the running sum is reset: zero plus this block's sum. -/
theorem acc_A (c : Dev nD) (i : grid0.Coords) (arg2 : Memref sig .tc .vmem S32x512x300 .f32) (harg2 : arg2.IsWhole) (arg3 : Memref sig .tc .vmem S32x64x300 .f32) (harg3 : arg3.IsWhole) (arg4 : Memref sig .tc .vmem S32x600 .f32) (harg4 : arg4.IsWhole) (arg5 : Memref sig .tc .vmem S32x300 .f32) (harg5 : arg5.IsWhole) (arg6 : Memref sig .tc .vmem S32x300 .f32) (harg6 : arg6.IsWhole) (hc0 : cond0_0 i) (hc1 : ¬cond0_1 i)
    (x0 : Vec F S32x512x300 .f32) (x1 : Vec F S32x64x300 .f32) :
    sout0_A_0 c i arg2 harg2 arg3 harg3 arg4 harg4 arg5 harg5 arg6 harg6 hc0 hc1 x0 x1 = k0_pay3 (k0_pay1 (F := F)) x0 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S32x300) hz2, View.readCov_unit_zero (S := S32x300) _ hz2]
  simp only [View.readAt_eq_ld, harg2.read_unread, View.ld_unit_zero (S := S32x512x300) hz3]

/-- At a batch tile's first word block the options mean is computed from the options block. -/
theorem opt_A (c : Dev nD) (i : grid0.Coords) (arg2 : Memref sig .tc .vmem S32x512x300 .f32) (harg2 : arg2.IsWhole) (arg3 : Memref sig .tc .vmem S32x64x300 .f32) (harg3 : arg3.IsWhole) (arg4 : Memref sig .tc .vmem S32x600 .f32) (harg4 : arg4.IsWhole) (arg5 : Memref sig .tc .vmem S32x300 .f32) (harg5 : arg5.IsWhole) (arg6 : Memref sig .tc .vmem S32x300 .f32) (harg6 : arg6.IsWhole) (hc0 : cond0_0 i) (hc1 : ¬cond0_1 i)
    (x0 : Vec F S32x512x300 .f32) (x1 : Vec F S32x64x300 .f32) :
    sout0_A_1 c i arg2 harg2 arg3 harg3 arg4 harg4 arg5 harg5 arg6 harg6 hc0 hc1 x0 x1 = k0_pay2 x1 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  rw [View.canon_unit_zero hz2]
  simp only [View.readAt_eq_ld, harg3.read_unread, View.ld_unit_zero (S := S32x64x300) hz3]

end Cert.KernelIdeal.Pool

end
-- ==== Proof.Steps.lean ====
/-
  One grid point's effect on the two carried buffers, as equations between what the buffers hold after consecutive
  points. At a batch tile's first word block the running sum restarts (zero plus the block's sum) and the options
  mean is computed; at every later word block of the tile the running sum gains that block's sum and the options
  mean is kept; at the tile's last word block the output block is, besides, the scaled running sum joined with the
  options mean.
-/
import proofs.«133428_j26147760898611_2_alg».proof.Proof.BodyPieces

noncomputable section

open Idealize.ShloMosaic Idealize.ShloMosaic.TcCoe Idealize.SL.Sem

namespace Cert.KernelIdeal.Pool

open Cert.KernelIdeal Cert.KernelIdeal.Gen

variable {F : FTy → Type} [FloatOps F]
variable (m : (ℓ : Loc nD τ sig) → Buf (Elt F) ℓ)

/-- After a batch tile's first word block: the running sum is zero plus that block's sum, the options mean is
    computed from the tile's options block. -/
theorem after_first (c : Dev nD) (t : Fin cfg0.N) (h0 : t.val % 4 = 0) (h1 : ¬t.val % 4 = 3) :
    (outsAt0 m c t.val t.isLt).2.1 = k0_pay3 (k0_pay1 (F := F)) (iblk m c 0 t)
    ∧ (outsAt0 m c t.val t.isLt).2.2 = k0_pay2 (iblk m c 1 t) := by
  rw [outsAt0_A m c t h0 h1]
  dsimp only
  constructor
  · exact acc_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)
  · exact opt_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- After a middle word block: the running sum is what the point before left plus this block's sum, the options mean
    is what the point before left. -/
theorem after_middle (c : Dev nD) (t : Fin cfg0.N) (h0 : ¬t.val % 4 = 0) (h1 : ¬t.val % 4 = 3) :
    (outsAt0 m c t.val t.isLt).2.1 = k0_pay3 (outsAt0 m c (t.val - 1) (Nat.lt_of_le_of_lt (Nat.sub_le _ _) t.isLt)).2.1 (iblk m c 0 t)
    ∧ (outsAt0 m c t.val t.isLt).2.2 = (outsAt0 m c (t.val - 1) (Nat.lt_of_le_of_lt (Nat.sub_le _ _) t.isLt)).2.2 := by
  rw [outsAt0_B m c t h0 h1]
  dsimp only
  constructor
  · exact acc_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2
  · rfl

/-- After the last word block: the same, and the output block is the scaled running sum joined with the options
    mean. -/
theorem after_last (c : Dev nD) (t : Fin cfg0.N) (h0 : ¬t.val % 4 = 0) (h1 : t.val % 4 = 3) :
    (outsAt0 m c t.val t.isLt).2.1 = k0_pay3 (outsAt0 m c (t.val - 1) (Nat.lt_of_le_of_lt (Nat.sub_le _ _) t.isLt)).2.1 (iblk m c 0 t)
    ∧ (outsAt0 m c t.val t.isLt).2.2 = (outsAt0 m c (t.val - 1) (Nat.lt_of_le_of_lt (Nat.sub_le _ _) t.isLt)).2.2
    ∧ (outsAt0 m c t.val t.isLt).1 = k0_pay4 (outsAt0 m c t.val t.isLt).2.1 (outsAt0 m c t.val t.isLt).2.2 := by
  rw [outsAt0_C m c t h0 h1]
  have e := acc_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2
  dsimp only
  refine ⟨e, rfl, ?_⟩
  rw [e]
  exact out_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Pool

end
-- ==== Proof.BodyAtIndex.lean ====
/-
  The body's four stored values read at one entry, on the extended reals. The reset value is zero everywhere; the
  running-sum update at row `r`, feature `j` is what the buffer held there plus the sum over the 512 words of the
  article block at (`r`, ·, `j`); the options mean there is the sum over the 64 words of the options block times
  2^-6; the output block at (`r`, `j`) is, in the first 300 features, the running sum times 2^-11, and in the last
  300 the options mean at feature `j - 300`.
-/
import proofs.«133428_j26147760898611_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Pool

open Cert.KernelIdeal Cert.KernelIdeal.Gen

/-- The reset value is zero at every entry. -/
theorem zero_apply (y : S32x300.Idx) : k0_pay1 (F := Ideal) y = 0 := by
  unfold k0_pay1
  rw [shapeCast_self]
  show Ideal.ofBits .f32 0x00000000#32 = 0
  exact Ideal.ofBits_zero_f32

/-- A sum over the word axis of a 32 × 512 × 300 block, at row `r` and feature `j`. -/
theorem lane_sum_512 (v4 : FVec Ideal S32x512x300 .f32) (h : S32x512x300.Reduces [1] S32x300) (hφ : FKind.Formats .f32)
    (hacc : (0x00000000#32 : BitVec 32) = 0x00000000#32) (r : Fin 32) (j : Fin 300) :
    multiReduction .add [1] S32x300 v4 0x00000000#32 h hφ hacc (ix2 r j) = ∑ w : Fin 512, v4 (ix3 r w j) := by
  refine (Ideal.multiReduction_add_single v4 0x00000000#32 h hφ hacc (ix2 r j)).trans ?_
  refine Finset.sum_congr rfl fun w _ => congrArg v4 ?_
  funext a
  match a with
  | ⟨0, _⟩ => rfl
  | ⟨1, _⟩ => rfl
  | ⟨2, _⟩ => rfl

/-- A sum over the word axis of a 32 × 64 × 300 block, at row `r` and feature `j`. -/
theorem lane_sum_64 (v : FVec Ideal S32x64x300 .f32) (h : S32x64x300.Reduces [1] S32x300) (hφ : FKind.Formats .f32)
    (hacc : (0x00000000#32 : BitVec 32) = 0x00000000#32) (r : Fin 32) (j : Fin 300) :
    multiReduction .add [1] S32x300 v 0x00000000#32 h hφ hacc (ix2 r j) = ∑ w : Fin 64, v (ix3 r w j) := by
  refine (Ideal.multiReduction_add_single v 0x00000000#32 h hφ hacc (ix2 r j)).trans ?_
  refine Finset.sum_congr rfl fun w _ => congrArg v ?_
  funext a
  match a with
  | ⟨0, _⟩ => rfl
  | ⟨1, _⟩ => rfl
  | ⟨2, _⟩ => rfl

/-- The running-sum update at an entry: what was held plus the block's sum over its words. -/
theorem acc_apply (v3 : Vec Ideal S32x300 .f32) (v4 : Vec Ideal S32x512x300 .f32) (r : Fin 32) (j : Fin 300) :
    k0_pay3 (F := Ideal) v3 v4 (ix2 r j) = v3 (ix2 r j) + ∑ w : Fin 512, v4 (ix3 r w j) := by
  unfold k0_pay3
  rw [shapeCast_self, addf_apply]
  exact congrArg (v3 (ix2 r j) + ·) (lane_sum_512 v4 _ _ _ r j)

/-- The options mean at an entry: the block's sum over its words, times 2^-6. -/
theorem opt_apply (v17 : Vec Ideal S32x64x300 .f32) (r : Fin 32) (j : Fin 300) :
    k0_pay2 (F := Ideal) v17 (ix2 r j) = (∑ w : Fin 64, v17 (ix3 r w j)) * Ideal.ofBits .f32 0x3C800000#32 := by
  unfold k0_pay2
  rw [shapeCast_self, mulf_apply]
  exact congrArg (· * Ideal.ofBits .f32 0x3C800000#32) (lane_sum_64 v17 _ _ _ r j)

/-- The output block in its first 300 features: the running sum times 2^-11. -/
theorem out_apply_left (v13 v16 : Vec Ideal S32x300 .f32) (r : Fin 32) (j : Fin 600) (h : j.val < 300) :
    k0_pay4 (F := Ideal) v13 v16 (ix2 r j) = v13 (ix2 r ⟨j.val, h⟩) * Ideal.ofBits .f32 0x3A000000#32 := by
  unfold k0_pay4
  refine (concatenate_pair_apply_left (t := S32x600) (s₁ := S32x300) (s₂ := S32x300) (1 : Fin 2) _ _
    concatenates_S32x300_S32x300_S32x600_d1 (ix2 r j) rfl (ix2 r ⟨j.val, h⟩) ?_).trans ?_
  · intro b
    match b with
    | ⟨0, _⟩ => rfl
    | ⟨1, _⟩ => rfl
  · rfl

/-- The output block in its last 300 features: the options mean, 300 features back. -/
theorem out_apply_right (v13 v16 : Vec Ideal S32x300 .f32) (r : Fin 32) (j : Fin 600) (h : 300 ≤ j.val) :
    k0_pay4 (F := Ideal) v13 v16 (ix2 r j) = v16 (ix2 r ⟨j.val - 300, by have := j.isLt; omega⟩) := by
  unfold k0_pay4
  refine concatenate_pair_apply_right (t := S32x600) (s₁ := S32x300) (s₂ := S32x300) (1 : Fin 2) _ _
    concatenates_S32x300_S32x300_S32x600_d1 (ix2 r j) rfl rfl (ix2 r ⟨j.val - 300, by have := j.isLt; omega⟩) ?_ ?_
  · intro b hb
    match b with
    | ⟨0, _⟩ => rfl
    | ⟨1, _⟩ => exact absurd rfl hb
  · show (j.val - 300) + 300 = j.val
    omega

end Cert.KernelIdeal.Pool

end
-- ==== Proof.BlockReads.lean ====
/-
  Where the pipeline's blocks sit in the two argument arrays. Grid point `t` (0 ≤ t < 32) is batch tile `t / 4` at
  word block `t % 4`: the article block there holds rows `32 (t / 4) + r`, words `512 (t % 4) + w`, all 300 features;
  the options block holds the same rows, all 64 words, all features (it does not move with the word block); the output
  block holds the same rows and all 600 features.
-/
import proofs.«133428_j26147760898611_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open scoped BigOperators

namespace Cert.KernelIdeal.Pool

open Cert.KernelIdeal Cert.KernelIdeal.Gen

variable {F : FTy → Type} [FloatOps F]
variable (m : (ℓ : Loc nD τ sig) → Buf (Elt F) ℓ)

/-- The article array at batch row `b`, word `w`, feature `j` (each taken modulo its extent, so that the
    function is total on the naturals; every use is inside the extents). -/
def art (c : Dev nD) (b w j : ℕ) : F .f32 :=
  m ((c : Thread nD τ).loc main_arg0)
    (ix3 (⟨b % 256, Nat.mod_lt _ (by decide)⟩ : Fin 256) (⟨w % 2048, Nat.mod_lt _ (by decide)⟩ : Fin 2048)
      (⟨j % 300, Nat.mod_lt _ (by decide)⟩ : Fin 300))

/-- The options array at batch row `b`, word `w`, feature `j` (likewise). -/
def opt (c : Dev nD) (b w j : ℕ) : F .f32 :=
  m ((c : Thread nD τ).loc main_arg1)
    (ix3 (⟨b % 256, Nat.mod_lt _ (by decide)⟩ : Fin 256) (⟨w % 64, Nat.mod_lt _ (by decide)⟩ : Fin 64)
      (⟨j % 300, Nat.mod_lt _ (by decide)⟩ : Fin 300))

/-- Grid point `t` is batch tile `t / 4`, word block `t % 4`: the article window's block indices there. -/
theorem art_index : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- The options window's block indices at grid point `t`: batch tile `t / 4`, nothing else moves. -/
theorem opt_index : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- The output window's block indices at grid point `t`: batch tile `t / 4`. -/
theorem out_index : ∀ t : Fin cfg0.N, win0_2.index t 0 = t.val / 4 ∧ win0_2.index t 1 = 0 :=
  (by decide +kernel : ∀ t : Fin grid0.N, win0_2.index t 0 = t.val / 4 ∧ win0_2.index t 1 = 0)

/-- The article block at grid point `t`, entry (`r`, `w`, `j`), is the article array at row `32 (t / 4) + r`, word
    `512 (t % 4) + w`, feature `j`. -/
theorem art_block (c : Dev nD) (t : Fin cfg0.N) (r : Fin 32) (w : Fin 512) (j : Fin 300) :
    (iblk m c 0 t : Vec F S32x512x300 .f32) (ix3 r w j)
      = art m c (32 * (t.val / 4) + r.val) (512 * (t.val % 4) + w.val) j.val := by
  have hN : t.val < 32 := lt_of_lt_of_eq t.isLt (show cfg0.N = 32 from N_0)
  have hi := art_index t
  have hr := r.isLt; have hw := w.isLt; have hj := j.isLt
  unfold iblk art
  rw [View.read_apply]
  show V m c main_arg0 _ = m (c.tc.loc main_arg0) _
  unfold V
  congr 1
  funext a
  apply Fin.ext
  match a with
  | ⟨0, _⟩ => show win0_0.index t 0 * 32 + 1 * r.val = (32 * (t.val / 4) + r.val) % 256; rw [hi.1]; omega
  | ⟨1, _⟩ => show win0_0.index t 1 * 512 + 1 * w.val = (512 * (t.val % 4) + w.val) % 2048; rw [hi.2.1]; omega
  | ⟨2, _⟩ => show win0_0.index t 2 * 300 + 1 * j.val = j.val % 300; rw [hi.2.2]; omega

/-- The options block at grid point `t`, entry (`r`, `w`, `j`), is the options array at row `32 (t / 4) + r`, word `w`,
    feature `j`. -/
theorem opt_block (c : Dev nD) (t : Fin cfg0.N) (r : Fin 32) (w : Fin 64) (j : Fin 300) :
    (iblk m c 1 t : Vec F S32x64x300 .f32) (ix3 r w j) = opt m c (32 * (t.val / 4) + r.val) w.val j.val := by
  have hN : t.val < 32 := lt_of_lt_of_eq t.isLt (show cfg0.N = 32 from N_0)
  have hi := opt_index t
  have hr := r.isLt; have hw := w.isLt; have hj := j.isLt
  unfold iblk opt
  rw [View.read_apply]
  show V m c main_arg1 _ = m (c.tc.loc main_arg1) _
  unfold V
  congr 1
  funext a
  apply Fin.ext
  match a with
  | ⟨0, _⟩ => show win0_1.index t 0 * 32 + 1 * r.val = (32 * (t.val / 4) + r.val) % 256; rw [hi.1]; omega
  | ⟨1, _⟩ => show win0_1.index t 1 * 64 + 1 * w.val = w.val % 64; rw [hi.2.1]; omega
  | ⟨2, _⟩ => show win0_1.index t 2 * 300 + 1 * j.val = j.val % 300; rw [hi.2.2]; omega

end Cert.KernelIdeal.Pool

end
-- ==== Proof.Carried.lean ====
/-
  What the two carried buffers hold after every grid point, entry by entry. Grid point `n` is batch tile `n / 4` at
  word block `n % 4`. After it the running sum at (`r`, `j`) is the sum of word blocks `0 … n % 4` of batch row
  `32 (n / 4) + r` at feature `j` — each block's sum a sum over its 512 words —, and the options buffer is that row's
  options mean. By induction on the point: a tile's first point restarts both, each later point adds one word block.
-/
import proofs.«133428_j26147760898611_2_alg».proof.Proof.Steps
import proofs.«133428_j26147760898611_2_alg».proof.Proof.BodyAtIndex
import proofs.«133428_j26147760898611_2_alg».proof.Proof.BlockReads

noncomputable section

open Idealize.ShloMosaic Idealize.ShloMosaic.TcCoe Idealize.SL.Sem Idealize.ShloMosaic.ValueIdx
open scoped BigOperators

namespace Cert.KernelIdeal.Pool

open Cert.KernelIdeal Cert.KernelIdeal.Gen

variable (m : (ℓ : Loc nD τ sig) → Buf (Elt Ideal) ℓ)

/-- The sum of the article array over word block `s` (512 words), at batch row `B` and feature `j`. -/
def artRun (c : Dev nD) (B s j : ℕ) : EReal := ∑ w : Fin 512, art m c B (512 * s + w.val) j

/-- The options mean at batch row `B` and feature `j`: the sum over the 64 words, times 2^-6. -/
def optMean (c : Dev nD) (B j : ℕ) : EReal := (∑ w : Fin 64, opt m c B w.val j) * Ideal.ofBits .f32 0x3C800000#32

/-- The article block at a grid point, as a vector of extended reals. -/
abbrev artBlock (c : Dev nD) (t : Fin cfg0.N) : Vec Ideal S32x512x300 .f32 := iblk m c 0 t

/-- The article block at grid point `n`, summed over its words at (`r`, `j`), is word block `n % 4`'s sum at row
    `32 (n / 4) + r`. -/
theorem block_sum (c : Dev nD) (n : ℕ) (h : n < cfg0.N) (r : Fin 32) (j : Fin 300) :
    ∑ w : Fin 512, artBlock m c ⟨n, h⟩ (ix3 r w j)
      = artRun m c (32 * (n / 4) + r.val) (n % 4) j.val :=
  Finset.sum_congr rfl fun w _ => art_block m c ⟨n, h⟩ r w j

/-- What the two carried buffers hold after grid point `n`, at (`r`, `j`): the running sum is the sum of word blocks
    `0 … n % 4` of batch row `32 (n / 4) + r`; the options mean is that row's. -/
def Holds (c : Dev nD) (n : ℕ) (h : n < cfg0.N) (r : Fin 32) (j : Fin 300) : Prop :=
  (outsAt0 m c n h).2.1 (ix2 r j) = ∑ s ∈ Finset.range (n % 4 + 1), artRun m c (32 * (n / 4) + r.val) s j.val
  ∧ (outsAt0 m c n h).2.2 (ix2 r j) = optMean m c (32 * (n / 4) + r.val) j.val

/-- At a batch tile's first word block. -/
theorem holds_first (c : Dev nD) (n : ℕ) (h : n < cfg0.N) (h0 : n % 4 = 0) (r : Fin 32) (j : Fin 300) :
    Holds m c n h r j := by
  have h1 : ¬n % 4 = 3 := by omega
  obtain ⟨e1, e2⟩ := after_first m c ⟨n, h⟩ h0 h1
  constructor
  · rw [show (outsAt0 m c n h).2.1 = k0_pay3 (k0_pay1 (F := Ideal)) (iblk m c 0 ⟨n, h⟩) from e1, acc_apply, zero_apply,
      zero_add, block_sum, h0, Finset.sum_range_one]
  · rw [show (outsAt0 m c n h).2.2 = k0_pay2 (iblk m c 1 ⟨n, h⟩) from e2, opt_apply]
    exact congrArg (· * Ideal.ofBits .f32 0x3C800000#32) (Finset.sum_congr rfl fun w _ => opt_block m c ⟨n, h⟩ r w j)

/-- After every grid point, by induction on the point: within a batch tile each step adds one more word block's sum
    and keeps the options mean. -/
theorem holds (c : Dev nD) (n : ℕ) : ∀ (h : n < cfg0.N) (r : Fin 32) (j : Fin 300), Holds m c n h r j := by
  induction n with
  | zero => exact fun h r j => holds_first m c 0 h rfl r j
  | succ k ih =>
    intro h r j
    by_cases h0 : (k + 1) % 4 = 0
    · exact holds_first m c (k + 1) h h0 r j
    · obtain ⟨i1, i2⟩ := ih (Nat.lt_of_succ_lt h) r j
      have ed : (k + 1) / 4 = k / 4 := by omega
      have em : (k + 1) % 4 = k % 4 + 1 := by omega
      have step : (outsAt0 m c (k + 1) h).2.1 = k0_pay3 (outsAt0 m c k (Nat.lt_of_succ_lt h)).2.1 (iblk m c 0 ⟨k + 1, h⟩)
          ∧ (outsAt0 m c (k + 1) h).2.2 = (outsAt0 m c k (Nat.lt_of_succ_lt h)).2.2 := by
        by_cases h1 : (k + 1) % 4 = 3
        · exact ⟨(after_last m c ⟨k + 1, h⟩ h0 h1).1, (after_last m c ⟨k + 1, h⟩ h0 h1).2.1⟩
        · exact after_middle m c ⟨k + 1, h⟩ h0 h1
      constructor
      · rw [step.1, acc_apply, i1, block_sum, ed, em, Finset.sum_range_succ _ (k % 4 + 1)]
      · rw [step.2, i2, ed]

end Cert.KernelIdeal.Pool

end
-- ==== Proof.Dyadics.lean ====
/-
  The four float constants the two programs spell, as the extended reals their bit patterns denote: the kernel
  multiplies a sum by 2^-11 and by 2^-6, the reference divides by 2^11 and by 2^6. All four are exact powers of
  two, so the quotient by 2^11 (by 2^6) IS the product with 2^-11 (with 2^-6) on every extended real, the
  infinities included.
-/
import Idealize.ShloMosaic.PureOps.Ideal

noncomputable section

namespace Cert.PoolLaws

open Idealize.ShloMosaic

/-- The pattern `0x45000000` denotes 2048 = 2^11. -/
theorem ofBits_2048 : Ideal.ofBits .f32 0x45000000#32 = ((2048 : ℝ) : EReal) := by
  simp [Ideal.ofBits, Ideal.ieee, -EReal.coe_mul]; norm_num

/-- The pattern `0x42800000` denotes 64 = 2^6. -/
theorem ofBits_64 : Ideal.ofBits .f32 0x42800000#32 = ((64 : ℝ) : EReal) := by
  simp [Ideal.ofBits, Ideal.ieee, -EReal.coe_mul]; norm_num

/-- The pattern `0x3A000000` denotes 1/2048 = 2^-11. -/
theorem ofBits_inv2048 : Ideal.ofBits .f32 0x3A000000#32 = ((1 / 2048 : ℝ) : EReal) := by
  simp [Ideal.ofBits, Ideal.ieee, -EReal.coe_mul]; norm_num

/-- The pattern `0x3C800000` denotes 1/64 = 2^-6. -/
theorem ofBits_inv64 : Ideal.ofBits .f32 0x3C800000#32 = ((1 / 64 : ℝ) : EReal) := by
  simp [Ideal.ofBits, Ideal.ieee, -EReal.coe_mul]; norm_num

/-- Dividing by 2048 is multiplying by 1/2048, on every extended real. -/
theorem div_2048 (x : EReal) :
    Ideal.div x (Ideal.ofBits .f32 0x45000000#32) = x * Ideal.ofBits .f32 0x3A000000#32 := by
  rw [ofBits_2048, ofBits_inv2048, Ideal.div_coe (by norm_num : (2048 : ℝ) ≠ 0)]

/-- Dividing by 64 is multiplying by 1/64, on every extended real. -/
theorem div_64 (x : EReal) :
    Ideal.div x (Ideal.ofBits .f32 0x42800000#32) = x * Ideal.ofBits .f32 0x3C800000#32 := by
  rw [ofBits_64, ofBits_inv64, Ideal.div_coe (by norm_num : (64 : ℝ) ≠ 0)]

end Cert.PoolLaws

end
-- ==== Proof.RefAtIndex.lean ====
/-
  The reference's result read at one entry, on the extended reals. In its first 300 features it is the article
  mean — zero plus the sum over the 2048 words, divided by 2048, which is that sum times 2^-11 —; in its last 300 it
  is the options mean, 300 features back — the sum over the 64 words times 2^-6.
-/
import proofs.«133428_j26147760898611_2_alg».proof.Proof.Gen.ReferenceIdeal.Read
import proofs.«133428_j26147760898611_2_alg».proof.Proof.Dyadics
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.ReferenceIdeal.Pool

open Cert.ReferenceIdeal Cert.ReferenceIdeal.Gen Cert.ReferenceIdeal.Read

/-- The article mean at batch row `b`, feature `j`: the sum over the 2048 words, times 2^-11. -/
theorem art_mean_apply (x0 : FVec Ideal S256x2048x300 .f32) (b : Fin 256) (j : Fin 300) :
    val_main_v2 (F := Ideal) x0 (ix2 b j) = (∑ k : Fin 2048, x0 (ix3 b k j)) * Ideal.ofBits .f32 0x3A000000#32 := by
  rw [val_main_v2_apply, val_main_v0_apply, val_main_v1_apply, val_main_cst_0_apply, val_main_cst_apply]
  simp only [Ideal.hostDivf_def, Ideal.ofBits_def, Ideal.ofBits_zero_f32, zero_add]
  rw [Cert.PoolLaws.div_2048]
  refine congrArg (· * _) (Finset.sum_congr rfl fun k _ => congrArg x0 ?_)
  funext a
  match a with
  | ⟨0, _⟩ => rfl
  | ⟨1, _⟩ => rfl
  | ⟨2, _⟩ => rfl

/-- The options mean at batch row `b`, feature `j`: the sum over the 64 words, times 2^-6. -/
theorem opt_mean_apply (x1 : FVec Ideal S256x64x300 .f32) (b : Fin 256) (j : Fin 300) :
    val_main_v5 (F := Ideal) x1 (ix2 b j) = (∑ k : Fin 64, x1 (ix3 b k j)) * Ideal.ofBits .f32 0x3C800000#32 := by
  rw [val_main_v5_apply, val_main_v3_apply, val_main_v4_apply, val_main_cst_2_apply, val_main_cst_1_apply]
  simp only [Ideal.hostDivf_def, Ideal.ofBits_def, Ideal.ofBits_zero_f32, zero_add]
  rw [Cert.PoolLaws.div_64]
  refine congrArg (· * _) (Finset.sum_congr rfl fun k _ => congrArg x1 ?_)
  funext a
  match a with
  | ⟨0, _⟩ => rfl
  | ⟨1, _⟩ => rfl
  | ⟨2, _⟩ => rfl

/-- The reference's result in its first 300 features is the article mean. -/
theorem result_left (x0 : FVec Ideal S256x2048x300 .f32) (x1 : FVec Ideal S256x64x300 .f32) (b : Fin 256) (j : Fin 600)
    (h : j.val < 300) :
    val_main_v6 (F := Ideal) x0 x1 (ix2 b j)
      = (∑ k : Fin 2048, x0 (ix3 b k (⟨j.val, h⟩ : Fin 300))) * Ideal.ofBits .f32 0x3A000000#32 := by
  unfold val_main_v6
  refine (concatenate_pair_apply_left (t := S256x600) (s₁ := S256x300) (s₂ := S256x300) (1 : Fin 2) _ _
    concatenates_S256x300_S256x300_S256x600_d1 (ix2 b j) rfl (ix2 b (⟨j.val, h⟩ : Fin 300)) ?_).trans
    (art_mean_apply x0 b ⟨j.val, h⟩)
  intro a
  match a with
  | ⟨0, _⟩ => rfl
  | ⟨1, _⟩ => rfl

/-- The reference's result in its last 300 features is the options mean, 300 features back. -/
theorem result_right (x0 : FVec Ideal S256x2048x300 .f32) (x1 : FVec Ideal S256x64x300 .f32) (b : Fin 256) (j : Fin 600)
    (h : 300 ≤ j.val) :
    val_main_v6 (F := Ideal) x0 x1 (ix2 b j)
      = (∑ k : Fin 64, x1 (ix3 b k (⟨j.val - 300, by have := j.isLt; omega⟩ : Fin 300))) * Ideal.ofBits .f32 0x3C800000#32 := by
  unfold val_main_v6
  refine (concatenate_pair_apply_right (t := S256x600) (s₁ := S256x300) (s₂ := S256x300) (1 : Fin 2) _ _
    concatenates_S256x300_S256x300_S256x600_d1 (ix2 b j) rfl rfl
    (ix2 b (⟨j.val - 300, by have := j.isLt; omega⟩ : Fin 300)) ?_ ?_).trans
    (opt_mean_apply x1 b ⟨j.val - 300, by have := j.isLt; omega⟩)
  · intro a ha
    match a with
    | ⟨0, _⟩ => rfl
    | ⟨1, _⟩ => exact absurd rfl ha
  · show (j.val - 300) + 300 = j.val
    omega

end Cert.ReferenceIdeal.Pool

end
-- ==== Proof.SumLaws.lean ====
/-
  A sum over 2048 consecutive positions taken in four runs of 512: the sum over all positions is the sum, over the
  four runs, of each run's sum. Addition on the extended reals is commutative and associative everywhere (the
  infinities included), so no finiteness is asked.
-/
import Idealize.ShloMosaic.PureOps.Ideal

noncomputable section

open scoped BigOperators

namespace Cert.PoolLaws

/-- Position `512 s + w` of run `s`. -/
def runPos (s : Fin 4) (w : Fin 512) : Fin 2048 :=
  ⟨512 * s.val + w.val, by have := s.isLt; have := w.isLt; omega⟩

/-- The whole sum is the sum of the four runs' sums. -/
theorem sum_four_runs {M : Type*} [AddCommMonoid M] (f : Fin 2048 → M) :
    ∑ k : Fin 2048, f k = ∑ s : Fin 4, ∑ w : Fin 512, f (runPos s w) := by
  rw [← Fintype.sum_prod_type' (fun s w => f (runPos s w))]
  refine (Fintype.sum_equiv (finProdFinEquiv (m := 4) (n := 512)) _ _ (fun p => ?_)).symm
  refine congrArg f (Fin.ext ?_)
  show 512 * p.1.val + p.2.val = p.2.val + 512 * p.1.val
  omega

end Cert.PoolLaws

end
-- ==== Proof.Result.lean ====
/-
  The output array after the run. A batch tile's last grid point (point `4 q + 3` for tile `q`) writes back the tile's
  32 rows; there the running sum holds all four word blocks' sums, which add up to the row's sum over all 2048 words,
  so the first 300 features are the reference's article mean and the last 300 its options mean. The eight tiles' blocks
  cover the array, so the array ends at the reference's function of the two arguments.
-/
import proofs.«133428_j26147760898611_2_alg».proof.Proof.Carried
import proofs.«133428_j26147760898611_2_alg».proof.Proof.RefAtIndex
import proofs.«133428_j26147760898611_2_alg».proof.Proof.SumLaws
import proofs.«133428_j26147760898611_2_alg».proof.Proof.Gen.KernelIdeal.Value

noncomputable section

open Idealize.ShloMosaic Idealize.ShloMosaic.TcCoe Idealize.SL.Sem Idealize.ShloMosaic.ValueIdx
open Idealize.ShloMosaic.Pipeline (Dat)
open scoped BigOperators

namespace Cert.KernelIdeal.Pool

open Cert.KernelIdeal Cert.KernelIdeal.Gen

variable (m : (ℓ : Loc nD τ sig) → Buf (Elt Ideal) ℓ) (ρ : Dev nD → PrngReg)

/-- The pooled and joined array: the reference's function of the two argument arrays — the article mean in the
    first 300 features, the options mean in the last 300. -/
abbrev pooled (c : Dev nD) : Buf (Elt Ideal) ((c : Thread nD τ).loc main_v0) :=
  Cert.ReferenceIdeal.Read.val_main_v6 (F := Ideal) (m ((c : Thread nD τ).loc main_arg0)) (m ((c : Thread nD τ).loc main_arg1))

/-- The article array, as a vector of extended reals. -/
abbrev artArr (c : Dev nD) : FVec Ideal S256x2048x300 .f32 := m ((c : Thread nD τ).loc main_arg0)

/-- The options array, as a vector of extended reals. -/
abbrev optArr (c : Dev nD) : FVec Ideal S256x64x300 .f32 := m ((c : Thread nD τ).loc main_arg1)

/-- The four word blocks' sums of a batch row are the row's sum over all 2048 words. -/
theorem runs_total (c : Dev nD) (B : Fin 256) (j : Fin 300) :
    ∑ s ∈ Finset.range 4, artRun m c B.val s j.val
      = ∑ k : Fin 2048, artArr m c (ix3 B k j) := by
  rw [Cert.PoolLaws.sum_four_runs, Finset.sum_range]
  refine Finset.sum_congr rfl fun s _ => Finset.sum_congr rfl fun w _ => ?_
  unfold art
  congr 1
  funext a
  apply Fin.ext
  have hB := B.isLt; have hs := s.isLt; have hw := w.isLt; have hj := j.isLt
  match a with
  | ⟨0, _⟩ => show B.val % 256 = B.val; omega
  | ⟨1, _⟩ => show (512 * s.val + w.val) % 2048 = 512 * s.val + w.val; omega
  | ⟨2, _⟩ => show j.val % 300 = j.val; omega

/-- A batch row's options mean, over the options array's own entries. -/
theorem opt_total (c : Dev nD) (B : Fin 256) (j : Fin 300) :
    optMean m c B.val j.val
      = (∑ k : Fin 64, optArr m c (ix3 B k j)) * Ideal.ofBits .f32 0x3C800000#32 := by
  unfold optMean
  refine congrArg (· * Ideal.ofBits .f32 0x3C800000#32) (Finset.sum_congr rfl fun w _ => ?_)
  unfold opt
  congr 1
  funext a
  apply Fin.ext
  have hB := B.isLt; have hw := w.isLt; have hj := j.isLt
  match a with
  | ⟨0, _⟩ => show B.val % 256 = B.val; omega
  | ⟨1, _⟩ => show w.val % 64 = w.val; omega
  | ⟨2, _⟩ => show j.val % 300 = j.val; omega

/-- What a batch tile's last grid point writes back is that tile's 32 rows of the pooled array. -/
theorem flushed_eq (c : Dev nD) (t : Fin cfg0.N) (hf : (cfg0.win 2).flush t = true) :
    (dats m 0 c).flushed 2 t = ((cfg0.win 2).blk t).view.read (Elt Ideal) (pooled m c) := by
  have h3 : t.val % 4 = 3 := (flush0_2 t).mp hf
  have h0 : ¬t.val % 4 = 0 := by omega
  have hN : t.val < 32 := lt_of_lt_of_eq t.isLt (show cfg0.N = 32 from N_0)
  obtain ⟨-, -, e⟩ := after_last m c t h0 h3
  rw [Cert.KernelIdeal.Value.flushed2, e]
  funext y
  obtain ⟨r, j, rfl⟩ : ∃ (r : Fin 32) (j : Fin 600), y = ix2 r j := ⟨y 0, y 1, eq_ix2 y⟩
  have hr := r.isLt; have hj6 := j.isLt
  show k0_pay4 (F := Ideal) (outsAt0 m c t.val t.isLt).2.1 (outsAt0 m c t.val t.isLt).2.2 (ix2 r j)
    = pooled m c (((cfg0.win 2).blk t).view.emb (ix2 r j))
  have hemb : ((cfg0.win 2).blk t).view.emb (ix2 r j)
      = ix2 (⟨32 * (t.val / 4) + r.val, by omega⟩ : Fin 256) j := by
    funext a
    apply Fin.ext
    match a with
    | ⟨0, _⟩ => show win0_2.index t 0 * 32 + 1 * r.val = 32 * (t.val / 4) + r.val; rw [(out_index t).1]; omega
    | ⟨1, _⟩ => show win0_2.index t 1 * 600 + 1 * j.val = j.val; rw [(out_index t).2]; omega
  rw [hemb]
  by_cases hj : j.val < 300
  · rw [out_apply_left _ _ r j hj, (holds m c t.val t.isLt r ⟨j.val, hj⟩).1, h3]
    show _ = Cert.ReferenceIdeal.Read.val_main_v6 (F := Ideal) _ _ _
    rw [Cert.ReferenceIdeal.Pool.result_left _ _ _ j hj]
    exact congrArg (· * Ideal.ofBits .f32 0x3A000000#32)
      (runs_total m c (⟨32 * (t.val / 4) + r.val, by omega⟩ : Fin 256) ⟨j.val, hj⟩)
  · have hj' : 300 ≤ j.val := Nat.le_of_not_lt hj
    rw [out_apply_right _ _ r j hj', (holds m c t.val t.isLt r ⟨j.val - 300, by omega⟩).2]
    show _ = Cert.ReferenceIdeal.Read.val_main_v6 (F := Ideal) _ _ _
    rw [Cert.ReferenceIdeal.Pool.result_right _ _ _ j hj']
    exact opt_total m c (⟨32 * (t.val / 4) + r.val, by omega⟩ : Fin 256) ⟨j.val - 300, by omega⟩

/-- An entry of the output array is in grid point `t`'s block iff each coordinate is in the block's range. -/
theorem mem_blk (t : Fin cfg0.N) (i : S256x600.Idx) :
    i ∈ ((cfg0.win 2).blk t).view.set ↔ ∀ a : Fin 2, win0_2.index t a * S32x600.size a ≤ (i a).val
      ∧ (i a).val < win0_2.index t a * S32x600.size a + S32x600.size a := by
  show i ∈ ((View.whole main_v0).slice (win0_2.rect t)).set ↔ _
  rw [View.set_slice_whole, Rect.mem_set_unit]
  exact Iff.rfl

/-- Every entry of the output array lies in the block some batch tile's last grid point writes back: row `b` in
    tile `b / 32`'s, written at grid point `4 (b / 32) + 3`. -/
theorem covered (i : S256x600.Idx) :
    ∃ t : Fin cfg0.N, (cfg0.win 2).flush t = true ∧ i ∈ ((cfg0.win 2).blk t).view.set := by
  have hi0 : (i 0).val < 256 := (i 0).isLt
  have hi1 : (i 1).val < 600 := (i 1).isLt
  have hN : cfg0.N = 32 := N_0
  let t : Fin cfg0.N := ⟨4 * ((i 0).val / 32) + 3, by omega⟩
  have ht : t.val = 4 * ((i 0).val / 32) + 3 := rfl
  refine ⟨t, (flush0_2 t).mpr (by omega), ?_⟩
  rw [mem_blk]
  intro a
  match a with
  | ⟨0, _⟩ =>
    show win0_2.index t 0 * 32 ≤ (i 0).val ∧ (i 0).val < win0_2.index t 0 * 32 + 32
    rw [(out_index t).1]; omega
  | ⟨1, _⟩ =>
    show win0_2.index t 1 * 600 ≤ (i 1).val ∧ (i 1).val < win0_2.index t 1 * 600 + 600
    rw [(out_index t).2]; omega

/-- So after the run the output array is the pooled array. -/
theorem final (c : Dev nD) : (dats m 0 c).arrAt 2 cfg0.N = pooled m c :=
  (dats m 0 c).arrAt_eq_of_cover 2 (pooled m c) (flushed_eq m c) covered

/-- The kernel's run, read: the output array ends at the pooled array, the two arguments unchanged. -/
theorem run : θ_run defs (onTc (τ := τ) (main (F := Ideal))) ⟨m, fun _ => 0, ρ⟩ fun r => ∀ c : Dev nD,
      r.2.mem ((c : Thread nD τ).loc main_v0) = pooled m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Pool

end
-- ==== Proof.lean ====
/-
  A fused mean-pool-and-join kernel against its plain reference, on the extended reals.

  The kernel walks a grid of 8 batch tiles (32 rows each) by 4 word blocks (512 words each). Within a tile it keeps
  two buffers across the four word blocks: a running sum of the article block over its words, restarted at the tile's
  first word block, and the options mean — the options block summed over its 64 words, times 2^-6 —, computed at the
  first word block and kept. At the tile's last word block it writes the tile's 32 output rows: the running sum times
  2^-11 in the first 300 features, the options mean in the last 300. The reference sums each array over its whole word
  axis, divides by 2048 and by 64, and joins the two means along the feature axis.

  The two agree entry by entry: the four word blocks' sums add up to the sum over all 2048 words (addition on the
  extended reals is commutative and associative everywhere, so no finiteness is needed), and since 2048 and 64 are powers
  of two whose reciprocals the kernel's constants denote exactly, dividing by them is multiplying by those constants on
  every extended real. The precondition is therefore never opened.

  Modules: Dyadics (the constants), SumLaws (a sum in four runs), BodyPieces and Steps (what one grid point leaves in
  the buffers), BodyAtIndex and BlockReads (those values and the blocks at an entry), Carried (the buffers after every
  grid point, by induction), RefAtIndex (the reference at an entry), Result (the output array after the run).
-/
import proofs.«133428_j26147760898611_2_alg».proof.Defs
import proofs.«133428_j26147760898611_2_alg».proof.Proof.Gen.Kernel
import proofs.«133428_j26147760898611_2_alg».proof.Proof.Gen.Kernel.Skeleton
import proofs.«133428_j26147760898611_2_alg».proof.Proof.Gen.Kernel.Launch
import proofs.«133428_j26147760898611_2_alg».proof.Proof.Gen.Kernel.Points
import proofs.«133428_j26147760898611_2_alg».proof.Proof.Gen.Kernel.Frame
import proofs.«133428_j26147760898611_2_alg».proof.Proof.Gen.KernelIdeal
import proofs.«133428_j26147760898611_2_alg».proof.Proof.Gen.KernelIdeal.Skeleton
import proofs.«133428_j26147760898611_2_alg».proof.Proof.Gen.KernelIdeal.Launch
import proofs.«133428_j26147760898611_2_alg».proof.Proof.Gen.KernelIdeal.Points
import proofs.«133428_j26147760898611_2_alg».proof.Proof.Gen.KernelIdeal.Frame
import proofs.«133428_j26147760898611_2_alg».proof.Proof.Gen.KernelIdeal.Value
import proofs.«133428_j26147760898611_2_alg».proof.Proof.Gen.ReferenceIdeal
import proofs.«133428_j26147760898611_2_alg».proof.Proof.Gen.ReferenceIdeal.Run
import proofs.«133428_j26147760898611_2_alg».proof.Proof.Gen.ReferenceIdeal.Read
import proofs.«133428_j26147760898611_2_alg».proof.Proof.Gen.Pre_finite_inputs
import proofs.«133428_j26147760898611_2_alg».proof.Proof.Result
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel :=
  fun m ρ _ => Cert.Kernel.Gen.frame m ρ

/-- So does the kernel read on the extended reals. -/
theorem frame_kernel_ideal : Cert.frame_KernelIdeal :=
  fun m ρ _ => Cert.KernelIdeal.Gen.frame m ρ

/-- The reference runs and leaves its arguments unchanged: its run, with the result forgotten. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- The kernel's text is read on the extended reals as it stands: nothing was rewritten. -/
theorem preserves : Cert.preserves_Kernel_KernelIdeal := trivial

/-- From memories that agree on the two arguments, the kernel's output array and the reference's result both end at
    the pooled array of those arguments. -/
theorem algebraic : Cert.algebraic_KernelIdeal_ReferenceIdeal := by
  intro m ρ m' ρ' _ hagree
  refine ⟨fun c => Cert.KernelIdeal.Pool.pooled m c, Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
